-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S512x512 : Shape := ⟨2, ![512, 512]⟩
abbrev S512 : Shape := ⟨1, ![512]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S64x512x1024 .f32) (main_arg1 : IVec S64x512x1024 32) (main_arg2 : FVec F S512x512 .f32) (main_arg3 : FVec F S512 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S64x512x1024 : Shape := ⟨3, ![64, 512, 1024]⟩
abbrev S512x512 : Shape := ⟨2, ![512, 512]⟩
abbrev S512 : Shape := ⟨1, ![512]⟩
abbrev S512x1 : Shape := ⟨2, ![512, 1]⟩
abbrev S64x1x512 : Shape := ⟨3, ![64, 1, 512]⟩
abbrev S1x512x1024 : Shape := ⟨3, ![1, 512, 1024]⟩
abbrev S1x1x512 : Shape := ⟨3, ![1, 1, 512]⟩
abbrev S512x1024 : Shape := ⟨2, ![512, 1024]⟩
abbrev S1024 : Shape := ⟨1, ![1024]⟩
abbrev S1x1024 : Shape := ⟨2, ![1, 1024]⟩
abbrev S64x512 : Shape := ⟨2, ![64, 512]⟩

abbrev nBuf : Space → Nat
  | .hbm => 7
  | .vmem => 8
  | .smem => 0
  | _ => 0

abbrev bufTy : (tb : Table) → Fin (tcTables nBuf tb) → BufTy
  | .hbm, ⟨0, _⟩ => ⟨S64x512x1024, .f32⟩
  | .hbm, ⟨1, _⟩ => ⟨S64x512x1024, .i32⟩
  | .hbm, ⟨2, _⟩ => ⟨S512x512, .f32⟩
  | .hbm, ⟨3, _⟩ => ⟨S512, .f32⟩
  | .hbm, ⟨4, _⟩ => ⟨S512x1, .f32⟩
  | .hbm, ⟨5, _⟩ => ⟨S64x1x512, .f32⟩
  | .hbm, ⟨6, _⟩ => ⟨S64x512, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .i32⟩
  | .local _ .vmem, ⟨3, _⟩ => ⟨S1x512x1024, .i32⟩
  | .local _ .vmem, ⟨4, _⟩ => ⟨S512x512, .f32⟩
  | .local _ .vmem, ⟨5, _⟩ => ⟨S512x1, .f32⟩
  | .local _ .vmem, ⟨6, _⟩ => ⟨S1x1x512, .f32⟩
  | .local _ .vmem, ⟨7, _⟩ => ⟨S1x1x512, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S512_S512x1 : S512.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  reduces_S512x1024_S1024 : S512x1024.Reduces [0] S1024
  shapeCasts_S1024_S1x1024 : S1024.ShapeCasts S1x1024
  broadcasts_S1x1024_S512x1024 : S1x1024.Broadcasts S512x1024
  reduces_S512x1024_S512 : S512x1024.Reduces [1] S512
  shapeCasts_S512_S1x1x512 : S512.ShapeCasts S1x1x512
  inb_S1x1x512_S1x1x512_0_0_0 : ∀ a, (![0, 0, 0] : Fin 3 → Nat) a + S1x1x512.size a ≤ S1x1x512.size a
  h_S1x1x512 : 0 < S1x1x512.numel
  shapeCasts_S64x1x512_S64x512 : S64x1x512.ShapeCasts S64x512
  dot_S512x512_S512x1024_S512x1024_0_0_1_1_n_n_wf : DotDims.WF S512x512 S512x1024 S512x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S64x512x1024.size a
  hwx0_1 : ∀ i : grid0.Coords, EltTy.bits .i32 = 32 ∨ (Rect.block (s := S64x512x1024) S1x512x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S64x1x512.size a
  hwx0_4 : ∀ i : grid0.Coords, EltTy.bits .f32 = 32 ∨ (Rect.block (s := S64x1x512) S1x1x512.size (cc0_transform_4 i) (hinb0_4 i)).WholeWords (EltTy.packing .f32)

variable [Facts₀]

def dot_S512x512_S512x1024_S512x1024_0_0_1_1_n_n : DotDims S512x512 S512x1024 S512x1024 where
  lhsContracting := [0]
  rhsContracting := [0]
  lhsNonContracting := [1]
  rhsNonContracting := [1]
  lhsBatch := []
  rhsBatch := []
  wf := dot_S512x512_S512x1024_S512x1024_0_0_1_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S512x512 : Shape := ⟨2, ![512, 512]⟩
abbrev S512 : Shape := ⟨1, ![512]⟩
abbrev S64x1024x512 : Shape := ⟨3, ![64, 1024, 512]⟩
abbrev S1x1x512 : Shape := ⟨3, ![1, 1, 512]⟩
abbrev S_ : Shape := ⟨0, ![]⟩
abbrev S64x1024 : Shape := ⟨2, ![64, 1024]⟩
abbrev S64x1024x1 : Shape := ⟨3, ![64, 1024, 1]⟩
abbrev S64x512 : Shape := ⟨2, ![64, 512]⟩

abbrev nBuf : Space → Nat
  | .hbm => 25
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x512x1024, .i32⟩
  | .hbm, ⟨2, _⟩ => ⟨S512x512, .f32⟩
  | .hbm, ⟨3, _⟩ => ⟨S512, .f32⟩
  | .hbm, ⟨4, _⟩ => ⟨S64x512x1024, .f32⟩
  | .hbm, ⟨5, _⟩ => ⟨S64x1024x512, .f32⟩
  | .hbm, ⟨6, _⟩ => ⟨S64x1024x512, .f32⟩
  | .hbm, ⟨7, _⟩ => ⟨S64x1024x512, .f32⟩
  | .hbm, ⟨8, _⟩ => ⟨S64x1024x512, .f32⟩
  | .hbm, ⟨9, _⟩ => ⟨S1x1x512, .f32⟩
  | .hbm, ⟨10, _⟩ => ⟨S64x1024x512, .f32⟩
  | .hbm, ⟨11, _⟩ => ⟨S64x1024x512, .f32⟩
  | .hbm, ⟨12, _⟩ => ⟨S64x1024x512, .f32⟩
  | .hbm, ⟨13, _⟩ => ⟨S64x1024x512, .f32⟩
  | .hbm, ⟨14, _⟩ => ⟨S_, .f32⟩
  | .hbm, ⟨15, _⟩ => ⟨S64x1024, .f32⟩
  | .hbm, ⟨16, _⟩ => ⟨S64x1024x1, .f32⟩
  | .hbm, ⟨17, _⟩ => ⟨S_, .f32⟩
  | .hbm, ⟨18, _⟩ => ⟨S64x1024x1, .f32⟩
  | .hbm, ⟨19, _⟩ => ⟨S64x1024x1, .f32⟩
  | .hbm, ⟨20, _⟩ => ⟨S64x1024x512, .f32⟩
  | .hbm, ⟨21, _⟩ => ⟨S64x1024x512, .f32⟩
  | .hbm, ⟨22, _⟩ => ⟨S64x1024x512, .f32⟩
  | .hbm, ⟨23, _⟩ => ⟨S_, .f32⟩
  | .hbm, ⟨24, _⟩ => ⟨S64x512, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  transposes_S64x512x1024_S64x1024x512_0_2_1 : S64x512x1024.Transposes [0, 2, 1] S64x1024x512
  bcast_S512_S1x1x512_2 : S512.BroadcastsInDim S1x1x512 (![2] : Fin 1 → Fin S1x1x512.rank)
  bcast_S1x1x512_S64x1024x512_0_1_2 : S1x1x512.BroadcastsInDim S64x1024x512 (![0, 1, 2] : Fin 3 → Fin S64x1024x512.rank)
  reducesTo_S64x1024x512_S64x1024_d2 : S64x1024x512.ReducesTo [2] S64x1024
  h_S_ : 0 < S_.numel
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S64x1024x1_S64x1024x512_0_1_2 : S64x1024x1.BroadcastsInDim S64x1024x512 (![0, 1, 2] : Fin 3 → Fin S64x1024x512.rank)
  reducesTo_S64x1024x512_S64x512_d1 : S64x1024x512.ReducesTo [1] S64x512
  dot_S64x1024x512_S512x512_S64x1024x512_2_0_01_1_n_n_wf : DotDims.WF S64x1024x512 S512x512 S64x1024x512 [2] [0] [0, 1] [1] [] []

variable [Facts₀]

def dot_S64x1024x512_S512x512_S64x1024x512_2_0_01_1_n_n : DotDims S64x1024x512 S512x512 S64x1024x512 where
  lhsContracting := [2]
  rhsContracting := [0]
  lhsNonContracting := [0, 1]
  rhsNonContracting := [1]
  lhsBatch := []
  rhsBatch := []
  wf := dot_S64x1024x512_S512x512_S64x1024x512_2_0_01_1_n_n_wf

class Facts : Prop extends Facts₀ where

variable [Facts]
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«106573_j66889820668334_1_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.LibColSum.lean ====
/-
  The sum of a column of a rank-2 array, read at the column.

  A kernel's vector reduction by addition of an [a, b] array along its FIRST axis keeps one value per column. Over
  the extended reals addition is exact, so the value at column j is the plain sum over the column's a entries,
  ∑ k, src (k, j), whatever order the hardware adds them in. The index that a column's result j and a coordinate k
  on the reduced axis name together is (k, j).
-/
import Idealize.ShloMosaic.Lib.ValueIdx
import Idealize.ShloMosaic.Lib.Pipeline.Value
import Idealize.ShloMosaic.PureOps.Ideal.Laws
import Idealize.ShloMosaic.PureOps.Reduce

noncomputable section

namespace Cert.ColSum

open Idealize.ShloMosaic Idealize.ShloMosaic.ValueIdx

/-- Column j of the reduced array with coordinate k put back on the reduced (first) axis is the index (k, j). -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A kernel's sum of an [a, b] array along its first axis, at the extended reals, read at column j: the sum of the
    column's a entries. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact congrArg (fun f => Finset.sum (Finset.univ : Finset (Fin a)) f)
    (funext fun k => congrArg src (lift_col h j k))

end Cert.ColSum

end
-- ==== Proof.LibVecBlock.lean ====
/-
  A vector read as a block with two leading unit axes.

  A vector of a entries reshaped to [1, 1, a] keeps its entries in order: the row-major position of (u, v, i) in
  [1, 1, a] is i, the position of i in [a]. So the block reads, at (u, v, i), entry i of the vector.
-/
import Idealize.ShloMosaic.Lib.Pipeline.Value
import Idealize.ShloMosaic.Lib.ValueIdx

noncomputable section

namespace Cert.VecBlock

open Idealize.ShloMosaic Idealize.ShloMosaic.ValueIdx

/-- A vector [a] cast to [1, 1, a] reads, at (u, v, i), entry i: the two indices have the same row-major position. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp)

end Cert.VecBlock

end
-- ==== Proof.LibContractFirst.lean ====
/-
  One tactic for a matrix product that contracts the FIRST axis of both operands: the contraction of a rank-2 left
  operand [K, A] with a rank-2 right operand [K, B] over their shared first axis, summed over the contraction index,
  is re-indexed as the sum over k of left (k, p) times right (k, q) at the output entry (p, q) — the product of the
  left operand's transpose with the right operand, with no transpose materialised.
-/
import Idealize.ShloMosaic.PureOps.Ideal.Laws
import Idealize.ShloMosaic.Lib.ValueIdx

namespace Cert.ContractFirst

open Idealize.ShloMosaic

set_option hygiene false in
/-- Closes `∑ c, l (D.lhsIdx (ix2 p q) c) * r (D.rhsIdx (ix2 p q) c) = ∑ k : Fin K, l (ix2 k p) * r (ix2 k q)` for a
    dimension record `D` that contracts the left operand's axis 0 (extent `K`) with the right operand's axis 0 and keeps
    the left operand's axis 1 and the right operand's axis 1 as the output's two axes; `SL` and `SR` are the operands'
    shapes. It expects `l`, `r`, `p`, `q` in scope under these names. -/
macro "contract_first " D:term:max SL:term:max SR:term:max K:term:max : tactic => `(tactic| (
  have l0 : ∀ c, ((($D).lhsIdx (ValueIdx.ix2 p q) c) 0).val = (c ⟨0, by decide⟩).val := fun c =>
    ($D).lhsIdx_val_of_single rfl (ValueIdx.ix2 p q) c
  have l1 : ∀ c, ((($D).lhsIdx (ValueIdx.ix2 p q) c) 1).val = p.val := fun c => by
    unfold DotDims.lhsIdx
    rw [dif_neg (show ¬(1 : Fin ($SL).rank) ∈ ($D).lhsBatch by decide), dif_pos (show (1 : Fin ($SL).rank) ∈ ($D).lhsNonContracting by decide)]
    rfl
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 k p := funext fun a => Fin.ext (by
    match a with
    | ⟨0, _⟩ => exact (l0 _).trans hk
    | ⟨1, _⟩ => exact l1 _)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.ContractFirst
-- ==== Proof.Spec.lean ====
/-
  Attention pooling of one batch, as a function of its masked input, and the one law its two arrangements differ by.

  For one batch let X t s be the masked input (the input entry times the mask entry, t one of the T rows, s one of
  the S columns), W the T × T weights and B the bias. The logits are z u s = (∑ t, W t u · X t s) + B u, the
  activations a u s = exp (tanh (z u s)), the normaliser of column s is d s = (∑ u, a u s) + ε, and the pooled output
  is out t = ∑ s, (a t s · X t s) / d s.

  The other arrangement multiplies the factors of the contraction in the other order, X t s · W t u, and normalises
  before weighting: out' t = ∑ s, (a t s / d s) · X t s.

  On the extended reals the quotient x / y is x · y⁻¹ only for y ≠ 0, so the step (a · X) / d = (a / d) · X needs the
  normaliser to be non-zero — and it is, whatever the inputs: tanh takes every extended real into [-1, 1], so every
  activation is a positive real, a sum of them is non-negative, and ε is positive. With d ≠ 0 both sides are products of
  the same three factors, equal by commutativity alone; no finiteness of X, W or B is used.
-/
import Idealize.ShloMosaic.PureOps.Ideal
import Idealize.ShloMosaic.PureOps.Ideal.Laws

noncomputable section

namespace Cert.Pool

open Idealize.ShloMosaic

/-- The normaliser's offset ε: the single-precision pattern of 1e-7. -/
abbrev eps : EReal := Ideal.ofBits .f32 0x33D6BF95#32

/-- ε is positive: a normal pattern with a clear sign bit. -/
theorem eps_pos : 0 < eps := by
  simp [eps, Ideal.ofBits, Ideal.ieee]
  positivity

/-- exp ∘ tanh is positive at every extended real: tanh lands in [-1, 1], where exp is a positive real. -/
theorem exp_tanh_pos (x : EReal) : 0 < Ideal.exp (Ideal.tanh x) := by
  induction x using EReal.rec with
  | bot =>
    have h : Ideal.tanh ⊥ = (((-1 : ℝ)) : EReal) := by rw [Ideal.tanh_bot, EReal.coe_neg, EReal.coe_one]
    rw [h]; exact EReal.coe_pos.mpr (Real.exp_pos _)
  | top =>
    have h : Ideal.tanh ⊤ = (((1 : ℝ)) : EReal) := by rw [Ideal.tanh_top]; norm_cast
    rw [h]; exact EReal.coe_pos.mpr (Real.exp_pos _)
  | coe r => exact EReal.coe_pos.mpr (Real.exp_pos _)

/-- With a non-zero divisor the quotient of a product is the product with the quotient: both are the product of the
    three factors a, x, d⁻¹. -/
theorem div_mul_right_comm (a x d : EReal) (hd : d ≠ 0) : Ideal.div (a * x) d = Ideal.div a d * x := by
  unfold Ideal.div
  rw [if_neg hd, if_neg hd]
  exact mul_right_comm a x d⁻¹

section
variable {ι κ : Type} [Fintype ι] [Fintype κ]
variable (X : ι → κ → EReal) (W : ι → ι → EReal) (B : ι → EReal)

/-- The activation exp (tanh (logit)) at output row u and column s, the contraction's factors in the order W · X. -/
def act (u : ι) (s : κ) : EReal := Ideal.exp (Ideal.tanh ((∑ t, W t u * X t s) + B u))

/-- Column s's normaliser: the sum of its activations plus ε. -/
def den (s : κ) : EReal := (∑ u, act X W B u s) + eps

/-- The pooled output at row t: the weighted activations divided by the normaliser, summed over the columns. -/
def pooled (t : ι) : EReal := ∑ s, Ideal.div (act X W B t s * X t s) (den X W B s)

/-- The same activation with the contraction's factors in the order X · W. -/
def actR (u : ι) (s : κ) : EReal := Ideal.exp (Ideal.tanh ((∑ t, X t s * W t u) + B u))

/-- The other arrangement: normalise first, then weight. -/
def pooledR (t : ι) : EReal := ∑ s, Ideal.div (actR X W B t s) ((∑ u, actR X W B u s) + eps) * X t s

theorem actR_eq (u : ι) (s : κ) : actR X W B u s = act X W B u s := by
  unfold actR act
  exact congrArg (fun z => Ideal.exp (Ideal.tanh (z + B u))) (Finset.sum_congr rfl fun t _ => mul_comm _ _)

/-- The normaliser is positive, hence not zero. -/
theorem den_pos (s : κ) : 0 < den X W B s :=
  lt_of_lt_of_le eps_pos (le_add_of_nonneg_left (Finset.sum_nonneg fun u _ => (exp_tanh_pos _).le))

/-- The two arrangements are one function. -/
theorem pooledR_eq (t : ι) : pooledR X W B t = pooled X W B t := by
  unfold pooledR pooled
  refine Finset.sum_congr rfl fun s _ => ?_
  have hd : (∑ u, actR X W B u s) + eps = den X W B s := by
    unfold den; exact congrArg (· + eps) (Finset.sum_congr rfl fun u _ => actR_eq X W B u s)
  rw [hd, actR_eq]
  exact (div_mul_right_comm _ _ _ (den_pos X W B s).ne').symm

end

end Cert.Pool

end
-- ==== Proof.KernelBody.lean ====
/-
  What the kernel's body computes from its four loaded blocks, read at one output entry.

  The body loads the batch's input block and mask block (both [1, T, S]), the weights [T, T] and the bias column
  [T, 1], and stores a [1, 1, T] block. Entry (0, 0, t) of what it stores is the pooled output at row t of the
  batch's masked input X t s = input (0, t, s) · mask (0, t, s), the weights W t u and the bias B u = column (u, 0):
  the leading unit axes are dropped or added by reshapes that keep the row-major order; the matrix product contracts
  the first axis of the weights with the first axis of the masked input, a sum over t of W t u · X t s at (u, s), the
  roundings to bf16 on the way in being the identity on extended reals; the bias column is repeated along the columns;
  the normaliser is the sum down each column of the activations plus ε, repeated along the rows; and the output is the
  sum along each row of the weighted activations over the normaliser.
-/
import proofs.«106573_j66889820668334_1_alg».proof.Proof.Gen.KernelIdeal.Skeleton
import proofs.«106573_j66889820668334_1_alg».proof.Proof.LibColumns
import proofs.«106573_j66889820668334_1_alg».proof.Proof.LibRowSum
import proofs.«106573_j66889820668334_1_alg».proof.Proof.LibColSum
import proofs.«106573_j66889820668334_1_alg».proof.Proof.LibVecBlock
import proofs.«106573_j66889820668334_1_alg».proof.Proof.LibContractFirst
import proofs.«106573_j66889820668334_1_alg».proof.Proof.Spec
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.PoolBody

open Cert.KernelIdeal Cert.KernelIdeal.Gen Idealize.ShloMosaic Idealize.ShloMosaic.ValueIdx Cert.Pool

/-! ## The body's three inputs, by coordinates -/

/-- The masked input of the block: the input entry times the mask entry read as a signed integer. -/
def maskedIn (x0 : Vec Ideal S1x512x1024 .f32) (x1 : Vec Ideal S1x512x1024 .i32) : Fin 512 → Fin 1024 → EReal :=
  fun t s => x0 (ix3 (0 : Fin 1) t s) * FloatOps.sitofp (F := Ideal) .f32 (x1 (ix3 (0 : Fin 1) t s))

/-- The weights by coordinates. -/
def weights (x2 : Vec Ideal S512x512 .f32) : Fin 512 → Fin 512 → EReal := fun t u => x2 (ix2 t u)

/-- The bias column by its row coordinate. -/
def biasCol (x3 : Vec Ideal S512x1 .f32) : Fin 512 → EReal := fun u => x3 (ix2 u (0 : Fin 1))

/-! ## The body's stages -/

/-- The masked input as the body forms it: the product of the two blocks with their leading unit axis dropped. -/
def xmV (x0 : Vec Ideal S1x512x1024 .f32) (x1 : Vec Ideal S1x512x1024 .i32) : FVec Ideal S512x1024 .f32 :=
  mulf (shapeCast S512x1024 x0 shapeCasts_S1x512x1024_S512x1024)
    (sitofp .f32 (shapeCast S512x1024 x1 shapeCasts_S1x512x1024_S512x1024))

/-- The activations as the body forms them: exp ∘ tanh of the matrix product plus the repeated bias column. -/
def actV (x0 : Vec Ideal S1x512x1024 .f32) (x1 : Vec Ideal S1x512x1024 .i32) (x2 : Vec Ideal S512x512 .f32)
    (x3 : Vec Ideal S512x1 .f32) : FVec Ideal S512x1024 .f32 :=
  exp (tanh (addf
    (matmul dot_S512x512_S512x1024_S512x1024_0_0_1_1_n_n none (truncf .bf16 x2 bitsLt_bf16_f32)
      (truncf .bf16 (xmV x0 x1) bitsLt_bf16_f32) (constant S512x1024 .f32 0x00000000#32))
    (broadcastTo S512x1024 (shapeCast S512x1 x3 shapeCasts_S512x1_S512x1) broadcasts_S512x1_S512x1024)))

/-- The normaliser as the body forms it from the activations: column sums plus ε, repeated along the rows. -/
def denV (e : FVec Ideal S512x1024 .f32) : FVec Ideal S512x1024 .f32 :=
  broadcastTo S512x1024
    (addf (shapeCast S1x1024 (multiReduction .add [0] S1024 e 0x00000000#32 reduces_S512x1024_S1024 (.inl rfl) rfl)
        shapeCasts_S1024_S1x1024)
      (broadcast S1x1024 (Scalar.ofBits .f32 0x33D6BF95#32)))
    broadcasts_S1x1024_S512x1024

/-- The stored value is these stages composed: the definitions unfold to the body's own sequence of operations. -/
theorem pay_eq (x0 : Vec Ideal S1x512x1024 .f32) (x1 : Vec Ideal S1x512x1024 .i32) (x2 : Vec Ideal S512x512 .f32)
    (x3 : Vec Ideal S512x1 .f32) :
    k0_pay1 (F := Ideal) x0 x1 x2 x3
      = shapeCast S1x1x512
          (multiReduction .add [1] S512
            (divf (mulf (actV x0 x1 x2 x3) (xmV x0 x1)) (denV (actV x0 x1 x2 x3)))
            0x00000000#32 reduces_S512x1024_S512 (.inl rfl) rfl)
          shapeCasts_S512_S1x1x512 := rfl

/-! ## Each stage at an index -/

theorem xmV_apply (x0 : Vec Ideal S1x512x1024 .f32) (x1 : Vec Ideal S1x512x1024 .i32) (t : Fin 512) (s : Fin 1024) :
    xmV x0 x1 (ix2 t s) = maskedIn x0 x1 t s := by
  unfold xmV maskedIn
  refine (mulf_apply _ _ _).trans ?_
  refine congrArg₂ (· * ·) (shapeCast_1ab_ab_apply x0 _ t s) ?_
  refine (sitofp_apply _ _).trans ?_
  exact congrArg (FloatOps.sitofp (F := Ideal) .f32) (shapeCast_1ab_ab_apply x1 _ t s)

/-- The matrix product into a zero accumulator at (p, q): the sum over the shared first axis. -/
theorem contract_apply (l : FVec Ideal S512x512 .bf16) (r : FVec Ideal S512x1024 .bf16) (p : Fin 512) (q : Fin 1024) :
    matmul dot_S512x512_S512x1024_S512x1024_0_0_1_1_n_n none l r (constant (F := Ideal) S512x1024 .f32 0x00000000#32) (ix2 p q)
      = ∑ k : Fin 512, l (ix2 k p) * r (ix2 k q) := by
  refine (Ideal.matmul_constant_zero_apply _ _ l r (ix2 p q)).trans ?_
  contract_first dot_S512x512_S512x1024_S512x1024_0_0_1_1_n_n S512x512 S512x1024 512

theorem actV_apply (x0 : Vec Ideal S1x512x1024 .f32) (x1 : Vec Ideal S1x512x1024 .i32) (x2 : Vec Ideal S512x512 .f32)
    (x3 : Vec Ideal S512x1 .f32) (u : Fin 512) (s : Fin 1024) :
    actV x0 x1 x2 x3 (ix2 u s) = act (maskedIn x0 x1) (weights x2) (biasCol x3) u s := by
  unfold actV act
  show Ideal.exp (Ideal.tanh (_ + _)) = _
  refine congrArg (fun z => Ideal.exp (Ideal.tanh z)) (congrArg₂ (· + ·) ?_ ?_)
  · refine (contract_apply _ _ u s).trans (Finset.sum_congr rfl fun k _ => ?_)
    show x2 (ix2 k u) * xmV x0 x1 (ix2 k s) = _
    rw [xmV_apply]; rfl
  · refine (Cert.Columns.broadcastTo_a1_ab_apply _ _ u s).trans ?_
    rw [shapeCast_self]; rfl

theorem denV_apply (e : FVec Ideal S512x1024 .f32) (r : Fin 512) (s : Fin 1024) :
    denV e (ix2 r s) = (∑ u : Fin 512, e (ix2 u s)) + eps := by
  unfold denV
  refine (broadcastTo_1b_ab_apply _ _ r s).trans ?_
  refine (addf_apply _ _ _).trans ?_
  refine congrArg₂ (· + ·) ?_ rfl
  refine (shapeCast_a_1a_apply _ _ (0 : Fin 1) s).trans ?_
  exact Cert.ColSum.multiReduction_add_col e _ _ _ _ s

/-! ## The stored block at an entry -/

/-- Entry (0, 0, t) of what the body stores is the pooled output at row t of its blocks. -/
theorem pay_apply (x0 : Vec Ideal S1x512x1024 .f32) (x1 : Vec Ideal S1x512x1024 .i32) (x2 : Vec Ideal S512x512 .f32)
    (x3 : Vec Ideal S512x1 .f32) (t : Fin 512) :
    k0_pay1 (F := Ideal) x0 x1 x2 x3 (ix3 (0 : Fin 1) (0 : Fin 1) t)
      = pooled (maskedIn x0 x1) (weights x2) (biasCol x3) t := by
  rw [pay_eq]
  refine (Cert.VecBlock.shapeCast_a_11a_apply _ _ (0 : Fin 1) (0 : Fin 1) t).trans ?_
  refine (Cert.RowSum.multiReduction_add_row _ _ _ _ _ t).trans ?_
  unfold pooled
  refine Finset.sum_congr rfl fun s _ => ?_
  show Ideal.div (actV x0 x1 x2 x3 (ix2 t s) * xmV x0 x1 (ix2 t s)) (denV (actV x0 x1 x2 x3) (ix2 t s)) = _
  rw [denV_apply, xmV_apply]
  simp only [actV_apply]
  rfl

end Cert.KernelIdeal.PoolBody

end
-- ==== Proof.PoolArrays.lean ====
/-
  The pooled output of every batch, as one function of the four argument arrays.

  For batch b the masked input is X t s = input (b, t, s) · mask (b, t, s) (the mask entry read as a signed integer);
  the weights and the bias are shared by all batches. The result array, of shape [64, 512], holds at (b, t) the
  pooled output at row t of batch b.
-/
import proofs.«106573_j66889820668334_1_alg».proof.Proof.Spec
import Idealize.ShloMosaic.Lib.ValueIdx

noncomputable section

namespace Cert.Pool

open Idealize.ShloMosaic Idealize.ShloMosaic.ValueIdx

/-- The pooled output at row t of batch b, the bias given by its coordinate. -/
def poolAt (a0 : (⟨3, ![64, 512, 1024]⟩ : Shape).Idx → EReal) (a1 : (⟨3, ![64, 512, 1024]⟩ : Shape).Idx → BitVec 32)
    (a2 : (⟨2, ![512, 512]⟩ : Shape).Idx → EReal) (bias : Fin 512 → EReal) (b : Fin 64) (t : Fin 512) : EReal :=
  pooled (fun r s => a0 (ix3 b r s) * FloatOps.sitofp (F := Ideal) .f32 (a1 (ix3 b r s))) (fun r u => a2 (ix2 r u)) bias t

/-- The result array [64, 512] of the four argument arrays. -/
def result (a0 : (⟨3, ![64, 512, 1024]⟩ : Shape).Idx → EReal) (a1 : (⟨3, ![64, 512, 1024]⟩ : Shape).Idx → BitVec 32)
    (a2 : (⟨2, ![512, 512]⟩ : Shape).Idx → EReal) (a3 : (⟨1, ![512]⟩ : Shape).Idx → EReal) :
    (⟨2, ![64, 512]⟩ : Shape).Idx → EReal :=
  fun i => poolAt a0 a1 a2 (fun u => a3 (ix1 u)) (i 0) (i 1)

end Cert.Pool

end
-- ==== Proof.KernelValue.lean ====
/-
  The kernel's result array after its run, as one function of the argument arrays.

  The grid has one point per batch. At point t each input window holds its block: batch t of the input and of the
  mask, the whole weights, and the whole bias column (which a host reshape made from the bias vector before the
  region). The body's stored block at point t is therefore batch t's pooled output, and the output window writes it
  back as row block t of a [64, 1, 512] array; the 64 blocks tile that array, so after the region it holds the pooled
  output of every batch. A host reshape after the region drops the middle unit axis.
-/
import proofs.«106573_j66889820668334_1_alg».proof.Proof.Gen.KernelIdeal.Frame
import proofs.«106573_j66889820668334_1_alg».proof.Proof.KernelBody
import proofs.«106573_j66889820668334_1_alg».proof.Proof.PoolArrays
import Idealize.ShloMosaic.Lib.Pipeline.Value
import Idealize.ShloMosaic.Lib.ValueLayout
import Idealize.ShloMosaic.Lib.StableHlo.Run

noncomputable section

namespace Cert.KernelIdeal.PoolValue

open Cert.KernelIdeal Cert.KernelIdeal.Gen Idealize.ShloMosaic Idealize.ShloMosaic.TcCoe Idealize.SL.Sem
open Idealize.ShloMosaic.ValueIdx Cert.Pool Cert.KernelIdeal.PoolBody
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The body's block from blocks of whole arrays -/

/-- If the four loaded blocks are batch b of the input and of the mask, the weights and the bias column, the stored
    block is batch b's pooled output. -/
theorem block_value (A0 : S64x512x1024.Idx → EReal) (A1 : S64x512x1024.Idx → BitVec 32) (A2 : S512x512.Idx → EReal)
    (A3 : S512x1.Idx → EReal)
    (x0 : Vec Ideal S1x512x1024 .f32) (x1 : Vec Ideal S1x512x1024 .i32) (x2 : Vec Ideal S512x512 .f32) (x3 : Vec Ideal S512x1 .f32)
    (b : Fin 64)
    (h0 : ∀ (r : Fin 512) (s : Fin 1024), x0 (ix3 (0 : Fin 1) r s) = A0 (ix3 b r s))
    (h1 : ∀ (r : Fin 512) (s : Fin 1024), x1 (ix3 (0 : Fin 1) r s) = A1 (ix3 b r s))
    (h2 : ∀ (r u : Fin 512), x2 (ix2 r u) = A2 (ix2 r u))
    (h3 : ∀ u : Fin 512, x3 (ix2 u (0 : Fin 1)) = A3 (ix2 u (0 : Fin 1)))
    (y : S1x1x512.Idx) :
    k0_pay1 (F := Ideal) x0 x1 x2 x3 y = poolAt A0 A1 A2 (fun u => A3 (ix2 u (0 : Fin 1))) b (y 2) := by
  obtain ⟨a, a', r, rfl⟩ : ∃ (a a' : Fin 1) (r : Fin 512), y = ix3 a a' r := ⟨y 0, y 1, y 2, eq_ix3 y⟩
  obtain rfl : a = 0 := Subsingleton.elim _ _
  obtain rfl : a' = 0 := Subsingleton.elim _ _
  show _ = poolAt A0 A1 A2 (fun u => A3 (ix2 u (0 : Fin 1))) b r
  rw [pay_apply]
  unfold poolAt
  have e0 : maskedIn x0 x1 = fun r s => A0 (ix3 b r s) * FloatOps.sitofp (F := Ideal) .f32 (A1 (ix3 b r s)) := by
    funext r s; unfold maskedIn; rw [h0, h1]
  have e2 : weights x2 = fun r u => A2 (ix2 r u) := by funext r u; exact h2 r u
  have e3 : biasCol x3 = fun u => A3 (ix2 u (0 : Fin 1)) := by funext u; exact h3 u
  rw [e0, e2, e3]

/-! ## The windows' blocks at a point -/

/-- The printed index maps, decided over the 64 grid points: the input, the mask and the output move with the point
    along their first axis; the weights and the bias column stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The grid point as a batch number. -/
abbrev batchOf (t : Fin cfg0.N) : Fin 64 := Fin.cast N_0 t

theorem read0 (c : Dev nD) (t : Fin cfg0.N) (r : Fin 512) (s : Fin 1024) :
    iblk m c 0 t (ix3 (0 : Fin 1) r s) = V m c main_arg0 (ix3 (batchOf t) r s) := by
  show V m c main_arg0 (((cfg0.win 0).blk t).view.emb (ix3 (0 : Fin 1) r s)) = _
  refine congrArg (V m c main_arg0) (funext fun a => Fin.ext ?_)
  obtain ⟨e0, e1, e2, -⟩ := idx_facts t
  match a with
  | ⟨0, _⟩ => show win0_0.index t (0 : Fin 3) * 1 + 1 * 0 = t.val; omega
  | ⟨1, _⟩ => show win0_0.index t (1 : Fin 3) * 512 + 1 * r.val = r.val; omega
  | ⟨2, _⟩ => show win0_0.index t (2 : Fin 3) * 1024 + 1 * s.val = s.val; omega

theorem read1 (c : Dev nD) (t : Fin cfg0.N) (r : Fin 512) (s : Fin 1024) :
    iblk m c 1 t (ix3 (0 : Fin 1) r s) = V m c main_arg1 (ix3 (batchOf t) r s) := by
  show V m c main_arg1 (((cfg0.win 1).blk t).view.emb (ix3 (0 : Fin 1) r s)) = _
  refine congrArg (V m c main_arg1) (funext fun a => Fin.ext ?_)
  obtain ⟨-, -, -, e0, e1, e2, -⟩ := idx_facts t
  match a with
  | ⟨0, _⟩ => show win0_1.index t (0 : Fin 3) * 1 + 1 * 0 = t.val; omega
  | ⟨1, _⟩ => show win0_1.index t (1 : Fin 3) * 512 + 1 * r.val = r.val; omega
  | ⟨2, _⟩ => show win0_1.index t (2 : Fin 3) * 1024 + 1 * s.val = s.val; omega

theorem read2 (c : Dev nD) (t : Fin cfg0.N) (r u : Fin 512) :
    iblk m c 2 t (ix2 r u) = V m c main_arg2 (ix2 r u) := by
  show V m c main_arg2 (((cfg0.win 2).blk t).view.emb (ix2 r u)) = _
  refine congrArg (V m c main_arg2) (funext fun a => Fin.ext ?_)
  obtain ⟨-, -, -, -, -, -, e0, e1, -⟩ := idx_facts t
  match a with
  | ⟨0, _⟩ => show win0_2.index t (0 : Fin 2) * 512 + 1 * r.val = r.val; omega
  | ⟨1, _⟩ => show win0_2.index t (1 : Fin 2) * 512 + 1 * u.val = u.val; omega

theorem read3 (c : Dev nD) (t : Fin cfg0.N) (u : Fin 512) :
    iblk m c 3 t (ix2 u (0 : Fin 1)) = V m c main_v0 (ix2 u (0 : Fin 1)) := by
  show V m c main_v0 (((cfg0.win 3).blk t).view.emb (ix2 u (0 : Fin 1))) = _
  refine congrArg (V m c main_v0) (funext fun a => Fin.ext ?_)
  obtain ⟨-, -, -, -, -, -, -, -, e0, e1, -⟩ := idx_facts t
  match a with
  | ⟨0, _⟩ => show win0_3.index t (0 : Fin 2) * 512 + 1 * u.val = u.val; omega
  | ⟨1, _⟩ => show win0_3.index t (1 : Fin 2) * 1 + 1 * 0 = 0; omega

/-! ## From blocks to the array -/

/-- What the output window's array ends holding, of the arrays as the region finds them. -/
def blockArr (c : Dev nD) : S64x1x512.Idx → EReal := fun i =>
  poolAt (V m c main_arg0) (V m c main_arg1) (V m c main_arg2) (fun u => V m c main_v0 (ix2 u (0 : Fin 1))) (i 0) (i 2)

/-- What point t writes back is block t of that array. -/
theorem flushed_eq (c : Dev nD) (t : Fin cfg0.N) :
    (dats m 0 c).flushed 4 t = ((cfg0.win 4).blk t).view.read (Elt Ideal) (blockArr m c) := by
  show (cfg0.win 4).cut (grid0.coords t) ((dats m 0 c).after 4 t) = _
  rw [after0_4]
  unfold out0_4
  rw [View.canon_unit_zero hz3]
  simp only [View.ld_unit_zero (S := S1x512x1024) hz3, View.ld_unit_zero (S := S512x512) hz2, View.ld_unit_zero (S := S512x1) hz2]
  funext j
  show k0_pay1 (iblk m c 0 t) (iblk m c 1 t) (iblk m c 2 t) (iblk m c 3 t) j = blockArr m c (((cfg0.win 4).blk t).view.emb j)
  refine (block_value (V m c main_arg0) (V m c main_arg1) (V m c main_arg2) (V m c main_v0)
    (iblk m c 0 t) (iblk m c 1 t) (iblk m c 2 t) (iblk m c 3 t) (batchOf t)
    (read0 m c t) (read1 m c t) (read2 m c t) (read3 m c t) j).trans ?_
  obtain ⟨-, -, -, -, -, -, -, -, -, -, e0, e1, e2⟩ := idx_facts t
  have hb : (((cfg0.win 4).blk t).view.emb j) 0 = batchOf t := Fin.ext (by
    have hj : (j 0).val < 1 := (j 0).isLt
    show win0_4.index t (0 : Fin 3) * 1 + 1 * (j 0).val = t.val; omega)
  have hr : (((cfg0.win 4).blk t).view.emb j) 2 = j 2 := Fin.ext (by
    show win0_4.index t (2 : Fin 3) * 512 + 1 * (j 2).val = (j 2).val; omega)
  unfold blockArr
  rw [hb, hr]

/-- An index of the array is in point t's block iff each coordinate is in the block's range on its axis. -/
theorem mem_blk (t : Fin cfg0.N) (i : S64x1x512.Idx) :
    i ∈ ((cfg0.win 4).blk t).view.set ↔ ∀ a : Fin 3, win0_4.index t a * S1x1x512.size a ≤ (i a).val ∧ (i a).val < win0_4.index t a * S1x1x512.size a + S1x1x512.size a := by
  show i ∈ ((View.whole main_v1).slice (win0_4.rect t)).set ↔ _
  rw [View.set_slice_whole, Rect.mem_set_unit]
  exact Iff.rfl

/-- The 64 blocks tile the array: the entry (b, 0, r) is in the block of point b. -/
theorem cover (i : S64x1x512.Idx) : ∃ t : Fin cfg0.N, (cfg0.win 4).flush t = true ∧ i ∈ ((cfg0.win 4).blk t).view.set := by
  have h0 : (i 0).val < 64 := (i 0).isLt
  have h1 : (i 1).val < 1 := (i 1).isLt
  have h2 : (i 2).val < 512 := (i 2).isLt
  let t : Fin cfg0.N := Fin.cast N_0.symm ⟨(i 0).val, h0⟩
  have ht : t.val = (i 0).val := rfl
  refine ⟨t, flush0_4 t, ?_⟩
  rw [mem_blk]
  obtain ⟨-, -, -, -, -, -, -, -, -, -, e0, e1, e2⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 512 ≤ (i 2).val ∧ (i 2).val < win0_4.index t (2 : Fin 3) * 512 + 512; omega

/-- The output window's array after the region. -/
theorem final (c : Dev nD) : (dats m 0 c).arrAt 4 cfg0.N = blockArr m c :=
  (dats m 0 c).arrAt_eq_of_cover 4 (blockArr m c) (fun t _ => flushed_eq m c t) (cover)

end Cert.KernelIdeal.PoolValue

end
-- ==== Proof.LibSqueezeMid.lean ====
/-
  A middle unit axis dropped by a reshape.

  An [a, 1, b] array reshaped to [a, b] keeps its entries in order: the row-major position of (i, 0, j) in [a, 1, b]
  is (i · 1 + 0) · b + j = i · b + j, the position of (i, j) in [a, b]. So the reshaped array reads, at (i, j), the
  operand at (i, 0, j).
-/
import Idealize.ShloMosaic.Lib.Pipeline.Value
import Idealize.ShloMosaic.Lib.ValueIdx

noncomputable section

namespace Cert.SqueezeMid

open Idealize.ShloMosaic Idealize.ShloMosaic.ValueIdx

/-- An [a, 1, b] array cast to [a, b] reads, at (i, j), the operand at (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    simp)

end Cert.SqueezeMid

end
-- ==== Proof.KernelRun.lean ====
/-
  The idealized kernel's run: its result array is the pooled output of every batch, its arguments unchanged.

  The arrays the region finds are the arguments themselves, but for the bias column, which the host reshape before the
  region made from the bias vector: its entry (u, 0) is the vector's entry u. After the region the output window's
  [64, 1, 512] array holds batch b's pooled output at (b, 0, ·); the host reshape after the region drops the unit
  axis, so the result holds it at (b, ·).
-/
import proofs.«106573_j66889820668334_1_alg».proof.Proof.KernelValue
import proofs.«106573_j66889820668334_1_alg».proof.Proof.LibColumns
import proofs.«106573_j66889820668334_1_alg».proof.Proof.LibSqueezeMid
import Idealize.ShloMosaic.Lib.StableHlo.Run

noncomputable section

namespace Cert.KernelIdeal.PoolValue

open Cert.KernelIdeal Cert.KernelIdeal.Gen Idealize.ShloMosaic Idealize.ShloMosaic.TcCoe Idealize.SL.Sem
open Idealize.ShloMosaic.ValueIdx Cert.Pool Cert.KernelIdeal.PoolBody
open Idealize.ShloMosaic.Pipeline (Dat)

variable (m : (ℓ : Loc nD τ sig) → Buf (Elt Ideal) ℓ) (ρ : Dev nD → PrngReg)

/-- The bias column the region finds is the bias vector reshaped to a column. -/
theorem V_bias (c : Dev nD) :
    (V m c main_v0 : S512x1.Idx → EReal) = shapeCast S512x1 (m ((c : Thread nD τ).loc main_arg3)) shapeCasts_S512_S512x1 := by
  show StableHlo.after hostOps0 (fun b => m (c, b)) (Proc.devRef .tc main_v0) = _
  after_results
  rfl

/-- The output window's array after the region, of the argument arrays as launched. -/
theorem blockArr_eq (c : Dev nD) :
    blockArr m c = fun i => poolAt (m ((c : Thread nD τ).loc main_arg0)) (m ((c : Thread nD τ).loc main_arg1))
      (m ((c : Thread nD τ).loc main_arg2)) (fun u => m ((c : Thread nD τ).loc main_arg3) (ix1 u)) (i 0) (i 2) := by
  unfold blockArr
  rw [V_main_arg0, V_main_arg1, V_main_arg2, V_bias]
  funext i
  refine congrArg (fun bias => poolAt _ _ _ bias (i 0) (i 2)) (funext fun u => ?_)
  exact Cert.Columns.shapeCast_a_a1_apply _ _ u (0 : Fin 1)

/-- The result buffer after the host reshape that follows the region. -/
theorem tail_eq (c : Dev nD) :
    Pipeline.afterTail₀ cfgs (dats m) 0 (V0 m) [hostOps1] c main_v2
      = result (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = blockArr m c :=
    (Pipeline.withArrays_arr spec0 launch0.win.arr_inj c _ _ 4).trans (final m c)
  rw [hw, blockArr_eq]
  funext i
  obtain ⟨b, t, rfl⟩ : ∃ (b : Fin 64) (t : Fin 512), i = ix2 b t := ⟨i 0, i 1, eq_ix2 i⟩
  exact Cert.SqueezeMid.shapeCast_a1b_ab_apply _ _ b t

/-- Every weakly fair execution of the idealized kernel's program terminates with the result buffer at the pooled output
    of every batch and the arguments as launched. -/
theorem run : θ_run defs (onTc (τ := τ) (main (F := Ideal))) ⟨m, fun _ => 0, ρ⟩ fun r => ∀ c : Dev nD,
      r.2.mem ((c.tc : Thread nD τ).loc main_v2)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v2 (Pipeline.mem_restRefs_of main_v2 (by decide) (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c))),
       ((h c).2 main_arg3 (Pipeline.mem_restRefs_of main_arg3 (by decide) (by decide))).trans (W_main_arg3 m (dats m) c)⟩)
    (run_main m ρ)

end Cert.KernelIdeal.PoolValue

end
-- ==== Proof.RefValue.lean ====
/-
  The reference's result is the pooled output of every batch.

  The reference transposes the input and the mask to [64, 1024, 512] and multiplies them, so its masked input at
  (b, s, t) is X t s of batch b; its product with the weights contracts t, the factors in the order X · W; its
  activations at (b, s, u) are exp (tanh (logit + bias u)); it sums them over u, adds ε, divides each activation by
  that normaliser, multiplies by the masked input and sums over s. At (b, t) this is the second arrangement of the
  pooled output, which is the first.
-/
import proofs.«106573_j66889820668334_1_alg».proof.Proof.Gen.ReferenceIdeal.Read
import proofs.«106573_j66889820668334_1_alg».proof.Proof.PoolArrays
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Pool

variable (x0 : (⟨S64x512x1024, .f32⟩ : BufTy).Contents (Elt Ideal)) (x1 : (⟨S64x512x1024, .i32⟩ : BufTy).Contents (Elt Ideal))
  (x2 : (⟨S512x512, .f32⟩ : BufTy).Contents (Elt Ideal)) (x3 : (⟨S512, .f32⟩ : BufTy).Contents (Elt Ideal))

/-- Batch b's masked input by coordinates. -/
def X (b : Fin 64) : Fin 512 → Fin 1024 → EReal :=
  fun t s => x0 (ix3 b t s) * FloatOps.sitofp (F := Ideal) .f32 (x1 (ix3 b t s))
/-- The weights by coordinates. -/
def Wt : Fin 512 → Fin 512 → EReal := fun t u => x2 (ix2 t u)
/-- The bias by its coordinate. -/
def Bv : Fin 512 → EReal := fun u => x3 (ix1 u)

/-! ## The transposes' and the broadcasts' index maps at coordinates -/

theorem i1 (b : Fin 64) (s : Fin 1024) (t : Fin 512) : idx_main_v1 (ix3 b s t) = ix3 b t s :=
  funext fun a => Fin.ext (by match a with | ⟨0, _⟩ => rfl | ⟨1, _⟩ => rfl | ⟨2, _⟩ => rfl)
theorem i2 (b : Fin 64) (s : Fin 1024) (t : Fin 512) : idx_main_v2 (ix3 b s t) = ix3 b t s :=
  funext fun a => Fin.ext (by match a with | ⟨0, _⟩ => rfl | ⟨1, _⟩ => rfl | ⟨2, _⟩ => rfl)
theorem i4l (b : Fin 64) (s : Fin 1024) (u k : Fin 512) : lidx_main_v4 (ix3 b s u) k = ix3 b s k :=
  funext fun a => Fin.ext (by match a with | ⟨0, _⟩ => rfl | ⟨1, _⟩ => rfl | ⟨2, _⟩ => rfl)
theorem i4r (b : Fin 64) (s : Fin 1024) (u k : Fin 512) : ridx_main_v4 (ix3 b s u) k = ix2 k u :=
  funext fun a => Fin.ext (by match a with | ⟨0, _⟩ => rfl | ⟨1, _⟩ => rfl)
theorem i6 (b : Fin 64) (s : Fin 1024) (u : Fin 512) : idx_main_v5 (idx_main_v6 (ix3 b s u)) = ix1 u :=
  funext fun a => Fin.ext (by match a with | ⟨0, _⟩ => rfl)
theorem i10 (b : Fin 64) (s : Fin 1024) (u k : Fin 512) :
    idx_main_v10 (idx_main_v11 (idx_main_v14 (ix3 b s u))) k = ix3 b s k :=
  funext fun a => Fin.ext (by match a with | ⟨0, _⟩ => rfl | ⟨1, _⟩ => rfl | ⟨2, _⟩ => rfl)
theorem i17 (b : Fin 64) (t : Fin 512) (k : Fin 1024) : idx_main_v17 (ix2 b t) k = ix3 b k t :=
  funext fun a => Fin.ext (by match a with | ⟨0, _⟩ => rfl | ⟨1, _⟩ => rfl | ⟨2, _⟩ => rfl)

/-! ## The stages at coordinates -/

/-- The reference's masked input at (b, s, t) is X t s of batch b. -/
theorem v3_at (b : Fin 64) (s : Fin 1024) (t : Fin 512) :
    val_main_v3 (F := Ideal) x0 x1 (ix3 b s t) = X x0 x1 b t s := by
  rw [val_main_v3_apply, val_main_v1_apply, val_main_v2_apply, val_main_v0_apply, i1, i2]
  rfl

/-- Its activations at (b, s, u). -/
theorem v9_at (b : Fin 64) (s : Fin 1024) (u : Fin 512) :
    val_main_v9 (F := Ideal) x0 x1 x2 x3 (ix3 b s u) = actR (X x0 x1 b) (Wt x2) (Bv x3) u s := by
  rw [val_main_v9_apply, val_main_v8_apply, val_main_v7_apply, val_main_v4_apply, val_main_v6_apply, val_main_v5_apply]
  simp only [i4l, i4r, i6, v3_at]
  rfl

/-- Its normaliser at (b, s, ·). -/
theorem v14_at (b : Fin 64) (s : Fin 1024) (u : Fin 512) :
    val_main_v14 (F := Ideal) x0 x1 x2 x3 (ix3 b s u) = (∑ u' : Fin 512, actR (X x0 x1 b) (Wt x2) (Bv x3) u' s) + eps := by
  rw [val_main_v14_apply, val_main_v13_apply, val_main_v11_apply, val_main_v12_apply, val_main_cst_0_apply,
    val_main_v10_apply, val_main_cst_apply]
  simp only [i10, v9_at, Ideal.ofBits_def, Ideal.ofBits_zero_f32, zero_add, Ideal.addf_def]

/-- The reference's result array is the pooled output of every batch. -/
theorem ref_eq : val_main_v17 (F := Ideal) x0 x1 x2 x3 = result x0 x1 x2 x3 := by
  funext i
  obtain ⟨b, t, rfl⟩ : ∃ (b : Fin 64) (t : Fin 512), i = ix2 b t := ⟨i 0, i 1, eq_ix2 i⟩
  rw [val_main_v17_apply, val_main_cst_1_apply]
  simp only [i17, val_main_v16_apply, val_main_v15_apply, v9_at, v14_at, v3_at, Ideal.ofBits_def, Ideal.ofBits_zero_f32,
    zero_add, Ideal.hostDivf_def, Ideal.mulf_def]
  exact pooledR_eq (X x0 x1 b) (Wt x2) (Bv x3) t

end Cert.ReferenceIdeal.RefValue

end
-- ==== Proof.lean ====
/-
  The kernel and its reference compute one function on the extended reals.

  Both programs take an input and a mask of shape [64, 512, 1024], weights [512, 512] and a bias [512], and return
  [64, 512]. For batch b let X t s = input (b, t, s) · mask (b, t, s), the logits z u s = (∑ t, W t u · X t s) + B u,
  the activations a u s = exp (tanh (z u s)), the normaliser d s = (∑ u, a u s) + ε. The kernel returns at (b, t)
  the sum over s of (a t s · X t s) / d s; the reference, which works on the transposed arrays, returns the sum over s
  of (a t s / d s) · X t s, with the factors of its contraction in the order X · W. The two agree because d is never
  zero — every activation is a positive real whatever the logit, and ε is positive — so each quotient is a product with
  d⁻¹ and the two terms are the same three factors; the order of a contraction's factors and of a finite sum's terms does
  not matter. No finiteness of the inputs is used.

  The three frames are the programs' runs with the result dropped; the idealized kernel is the kernel's own text read
  at the extended reals, so nothing is owed for it.
-/
import proofs.«106573_j66889820668334_1_alg».proof.Defs
import proofs.«106573_j66889820668334_1_alg».proof.Proof.Gen.Kernel
import proofs.«106573_j66889820668334_1_alg».proof.Proof.Gen.Kernel.Skeleton
import proofs.«106573_j66889820668334_1_alg».proof.Proof.Gen.Kernel.Launch
import proofs.«106573_j66889820668334_1_alg».proof.Proof.Gen.Kernel.Points
import proofs.«106573_j66889820668334_1_alg».proof.Proof.Gen.Kernel.Frame
import proofs.«106573_j66889820668334_1_alg».proof.Proof.Gen.KernelIdeal
import proofs.«106573_j66889820668334_1_alg».proof.Proof.Gen.KernelIdeal.Skeleton
import proofs.«106573_j66889820668334_1_alg».proof.Proof.Gen.KernelIdeal.Launch
import proofs.«106573_j66889820668334_1_alg».proof.Proof.Gen.KernelIdeal.Points
import proofs.«106573_j66889820668334_1_alg».proof.Proof.Gen.KernelIdeal.Frame
import proofs.«106573_j66889820668334_1_alg».proof.Proof.Gen.ReferenceIdeal
import proofs.«106573_j66889820668334_1_alg».proof.Proof.Gen.Pre_finite_inputs
import proofs.«106573_j66889820668334_1_alg».proof.Proof.Gen.ReferenceIdeal.Run
import proofs.«106573_j66889820668334_1_alg».proof.Proof.Gen.ReferenceIdeal.Read
import proofs.«106573_j66889820668334_1_alg».proof.Proof.KernelRun
import proofs.«106573_j66889820668334_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result buffer at the pooled output of every
    batch: the kernel by its run, the reference by its run read stage by stage. -/
theorem algebraic : Cert.algebraic_KernelIdeal_ReferenceIdeal := by
  intro m ρ m' ρ' _ hagree
  refine ⟨_, Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
